-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S8192x4096 .f32) (main_arg1 : FVec F S64x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S8192x4096 : Shape := ⟨2, ![8192, 4096]⟩
abbrev S64x4096 : Shape := ⟨2, ![64, 4096]⟩
abbrev S64x8192 : Shape := ⟨2, ![64, 8192]⟩
abbrev S8192x64 : Shape := ⟨2, ![8192, 64]⟩
abbrev S512x4096 : Shape := ⟨2, ![512, 4096]⟩
abbrev S64x512 : Shape := ⟨2, ![64, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64x8192, .f32⟩
  | .hbm, ⟨3, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S64x512, .f32⟩
  | .local _ .vmem, ⟨4, _⟩ => ⟨S64x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x8192_S8192x64_1_0 : S64x8192.Transposes [1, 0] S8192x64
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  inb_S64x512_S64x512_0_0 : ∀ a, (![0, 0] : Fin 2 → Nat) a + S64x512.size a ≤ S64x512.size a
  h_S64x512 : 0 < S64x512.numel
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x8192.size a
  hwx0_2 : ∀ i : grid0.Coords, EltTy.bits .f32 = 32 ∨ (Rect.block (s := S64x8192) S64x512.size (cc0_transform_2 i) (hinb0_2 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S4096x64 : Shape := ⟨2, ![4096, 64]⟩
abbrev S8192x64 : Shape := ⟨2, ![8192, 64]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S4096x64, .f32⟩
  | .hbm, ⟨3, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S64x4096_S4096x64_1_0 : S64x4096.Transposes [1, 0] S4096x64
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.Logits.lean ====
/-
  The mathematics of the certificate, with no program in sight.  For a token matrix `X` (8192 tokens, 4096
  features each) and a weight matrix `W` (64 experts, 4096 features each) the router's logit of token `t`
  for expert `e` is the inner product of row `t` of `X` with row `e` of `W`, a sum of 4096 products on the
  extended reals.  `logits` lays these out token-major (the index is (token, expert)) and `logitsT`
  expert-major (the index is (expert, token)); the two hold the same numbers with the coordinates swapped and
  the two factors of every product exchanged, and multiplication of extended reals is commutative even at the
  infinities, so no finiteness of the entries is needed.
-/
import Idealize.ShloMosaic.PureOps.Ideal
import Idealize.ShloMosaic.Lib.ValueIdx

noncomputable section

open scoped BigOperators

namespace Cert.Router

open Idealize.ShloMosaic Idealize.ShloMosaic.ValueIdx

/-- The token matrix, the weight matrix, and the two layouts of the logits, as index sets. -/
abbrev TokIdx := (⟨2, ![8192, 4096]⟩ : Shape).Idx
abbrev WgtIdx := (⟨2, ![64, 4096]⟩ : Shape).Idx
abbrev LogitIdx := (⟨2, ![8192, 64]⟩ : Shape).Idx
abbrev LogitTIdx := (⟨2, ![64, 8192]⟩ : Shape).Idx

/-- Token-major logits: entry (t, e) is the sum over the 4096 features k of X(t, k) · W(e, k). -/
def logits (X : TokIdx → EReal) (W : WgtIdx → EReal) : LogitIdx → EReal :=
  fun j => ∑ k : Fin 4096, X (ix2 (n0 := 8192) (n1 := 4096) (j 0) k) * W (ix2 (n0 := 64) (n1 := 4096) (j 1) k)

/-- Expert-major logits: entry (e, t) is the sum over the 4096 features k of W(e, k) · X(t, k). -/
def logitsT (X : TokIdx → EReal) (W : WgtIdx → EReal) : LogitTIdx → EReal :=
  fun i => ∑ k : Fin 4096, W (ix2 (n0 := 64) (n1 := 4096) (i 0) k) * X (ix2 (n0 := 8192) (n1 := 4096) (i 1) k)

/-- The expert-major entry at explicit coordinates. -/
theorem logitsT_ix2 (X : TokIdx → EReal) (W : WgtIdx → EReal) (e : Fin 64) (t : Fin 8192) :
    logitsT X W (ix2 e t) = ∑ k : Fin 4096, W (ix2 e k) * X (ix2 t k) := rfl

/-- The token-major entry at explicit coordinates. -/
theorem logits_ix2 (X : TokIdx → EReal) (W : WgtIdx → EReal) (t : Fin 8192) (e : Fin 64) :
    logits X W (ix2 t e) = ∑ k : Fin 4096, X (ix2 t k) * W (ix2 e k) := rfl

/-- Swapping the coordinates of the expert-major layout gives the token-major one: term by term the products
    differ only in the order of their two factors. -/
theorem logitsT_swap (X : TokIdx → EReal) (W : WgtIdx → EReal) (t : Fin 8192) (e : Fin 64) :
    logitsT X W (ix2 e t) = logits X W (ix2 t e) := by
  rw [logitsT_ix2, logits_ix2]
  exact Finset.sum_congr rfl fun k _ => mul_comm _ _

end Cert.Router

end
-- ==== Proof.MatmulBlock.lean ====
/-
  One grid point of the kernel, as arithmetic.  The body loads the whole weight block `w` (64 × 4096) and one
  block `x` of 512 token rows (512 × 4096) and stores their product contracted over the feature axis of BOTH
  operands, accumulated into zeros.  Read at an output index (e, t) on the extended reals this is the plain sum
  over the 4096 features k of w(e, k) · x(t, k): the accumulator contributes the real number zero, and the
  contraction's one-axis index set is re-indexed by the feature number.
-/
import proofs.«134084_g34059090657511_cont_8to1_b_1266_24_alg».proof.Proof.Gen.KernelIdeal.Skeleton
import Idealize.ShloMosaic.PureOps.Ideal.Laws
import Idealize.ShloMosaic.Lib.ValueIdx

noncomputable section

open scoped BigOperators

namespace Cert.Router.Block

open Cert.KernelIdeal Cert.KernelIdeal.Gen Idealize.ShloMosaic Idealize.ShloMosaic.ValueIdx

/-- The contraction's left operand index at output (e, t) and feature q keeps the output's first coordinate … -/
theorem lhs_row (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide),
    dif_pos (show (0 : Fin S64x4096.rank) ∈ dot_S64x4096_S512x4096_S64x512_1_1_0_0_n_n.lhsNonContracting by decide)]
  rfl

/-- … and runs over the features on its second. -/
theorem lhs_feat (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q

/-- The right operand index keeps the output's SECOND coordinate (the token row inside the block) on its first axis … -/
theorem rhs_row (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide),
    dif_pos (show (0 : Fin S512x4096.rank) ∈ dot_S64x4096_S512x4096_S64x512_1_1_0_0_n_n.rhsNonContracting by decide)]
  rfl

/-- … and runs over the features on its second as well: both operands are contracted along their feature axis. -/
theorem rhs_feat (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- What one grid point stores, at output coordinates (e, t): the inner product of weight row e with token row t
    of the loaded blocks. -/
theorem pay_apply (w : Vec Ideal S64x4096 .f32) (x : Vec Ideal S512x4096 .f32) (e : Fin 64) (t : Fin 512) :
    k0_pay1 (F := Ideal) w x (ix2 e t) = ∑ k : Fin 4096, w (ix2 e k) * x (ix2 t k) := by
  unfold k0_pay1
  simp only [matmul]
  rw [Ideal.matmul_constant_zero_apply,
    ← Equiv.sum_comp (contrEquiv1 dot_S64x4096_S512x4096_S64x512_1_1_0_0_n_n 4096 rfl rfl).symm]
  refine Finset.sum_congr rfl fun k _ => ?_
  have hk := contrEquiv1_symm_val dot_S64x4096_S512x4096_S64x512_1_1_0_0_n_n 4096 rfl rfl k
  have el : dot_S64x4096_S512x4096_S64x512_1_1_0_0_n_n.lhsIdx (ix2 e t)
      ((contrEquiv1 dot_S64x4096_S512x4096_S64x512_1_1_0_0_n_n 4096 rfl rfl).symm k) = ix2 e k :=
    funext fun a => Fin.ext (by
      match a with
      | ⟨0, _⟩ => exact lhs_row _ _
      | ⟨1, _⟩ => exact (lhs_feat _ _).trans hk)
  have er : dot_S64x4096_S512x4096_S64x512_1_1_0_0_n_n.rhsIdx (ix2 e t)
      ((contrEquiv1 dot_S64x4096_S512x4096_S64x512_1_1_0_0_n_n 4096 rfl rfl).symm k) = ix2 t k :=
    funext fun a => Fin.ext (by
      match a with
      | ⟨0, _⟩ => exact rhs_row _ _
      | ⟨1, _⟩ => exact (rhs_feat _ _).trans hk)
  rw [el, er]

end Cert.Router.Block

end
-- ==== Proof.KernelArray.lean ====
/-
  From one grid point to the whole array.  The grid has 16 points.  At point b the kernel is handed token rows
  512·b … 512·b + 511 of the token matrix (all 4096 features) and the whole weight matrix, and writes back
  columns 512·b … 512·b + 511 of the 64 × 8192 expert-major array.  So what point b writes back is exactly the
  block of `logitsT X W` its rectangle names: entry (e, 512·b + r) is the inner product of weight row e with
  token row 512·b + r.  The 16 column blocks tile the array, every point writes its block back, and therefore
  the array ends holding `logitsT X W` everywhere.
-/
import proofs.«134084_g34059090657511_cont_8to1_b_1266_24_alg».proof.Proof.Gen.KernelIdeal.Frame
import proofs.«134084_g34059090657511_cont_8to1_b_1266_24_alg».proof.Proof.Logits
import proofs.«134084_g34059090657511_cont_8to1_b_1266_24_alg».proof.Proof.MatmulBlock
import Idealize.ShloMosaic.Lib.Pipeline.Value

noncomputable section

open scoped BigOperators

namespace Cert.Router.Kernel

open Cert.KernelIdeal Cert.KernelIdeal.Gen Idealize.ShloMosaic Idealize.ShloMosaic.TcCoe Idealize.SL.Sem
open Idealize.ShloMosaic.ValueIdx Cert.Router
open Idealize.ShloMosaic.Pipeline (Dat)

variable (m : (ℓ : Loc nD τ sig) → Buf (Elt Ideal) ℓ) (ρ : Dev nD → PrngReg)

/-- Every access of the body starts at the origin of its buffer. -/
theorem zero_offsets : (![0, 0] : Fin 2 → Nat) = fun _ => 0 := funext fun a => by fin_cases a <;> rfl

/-- The three block index maps over the grid: the token window's row block is the output window's column block,
    every other block coordinate is zero, and there are at most 16 column blocks. -/
theorem block_indices : ∀ t : Fin cfg0.N,
    win0_0.index t (0 : Fin 2) = win0_2.index t (1 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) ≤ 15 :=
  (by decide +kernel : ∀ t : Fin grid0.N, _)

/-- Each of the 16 column blocks is some grid point's. -/
theorem every_block : ∀ q : Fin 16, ∃ t : Fin cfg0.N, win0_2.index t = ![0, q.val] :=
  (by decide +kernel : ∀ q : Fin 16, ∃ t : Fin grid0.N, win0_2.index t = ![0, q.val])

/-- The token window's block at a point, entry (r, k): token row 512·b + r of the token matrix, feature k. -/
theorem tok_block (c : Dev nD) (t : Fin cfg0.N) (r : Fin 512) (k : Fin 4096)
    (hr : win0_0.index t (0 : Fin 2) * 512 + r.val < 8192) :
    (iblk m c 0 t : Vec Ideal S512x4096 .f32) (ix2 r k)
      = (V m c main_arg0 : TokIdx → EReal) (ix2 ⟨win0_0.index t (0 : Fin 2) * 512 + r.val, hr⟩ k) := by
  obtain ⟨-, e1, -⟩ := block_indices t
  unfold iblk
  rw [View.read_apply]
  show V m c main_arg0 _ = V m c main_arg0 _
  refine congrArg _ ?_
  funext a
  apply Fin.ext
  match a with
  | ⟨0, _⟩ => show win0_0.index t (0 : Fin 2) * 512 + 1 * r.val = win0_0.index t (0 : Fin 2) * 512 + r.val; omega
  | ⟨1, _⟩ => show win0_0.index t (1 : Fin 2) * 4096 + 1 * k.val = k.val; omega

/-- The weight window's block at every point is the whole weight matrix. -/
theorem wgt_block (c : Dev nD) (t : Fin cfg0.N) (e : Fin 64) (k : Fin 4096) :
    (iblk m c 1 t : Vec Ideal S64x4096 .f32) (ix2 e k) = (V m c main_arg1 : WgtIdx → EReal) (ix2 e k) := by
  obtain ⟨-, -, e2, e3, -⟩ := block_indices t
  unfold iblk
  rw [View.read_apply]
  show V m c main_arg1 _ = V m c main_arg1 _
  refine congrArg _ ?_
  funext a
  apply Fin.ext
  match a with
  | ⟨0, _⟩ => show win0_1.index t (0 : Fin 2) * 64 + 1 * e.val = e.val; omega
  | ⟨1, _⟩ => show win0_1.index t (1 : Fin 2) * 4096 + 1 * k.val = k.val; omega

/-- What a point's body stores at (e, r) is the expert-major logit of expert e and token 512·b + r. -/
theorem point_entry (c : Dev nD) (t : Fin cfg0.N) (e : Fin 64) (r : Fin 512)
    (hr : win0_2.index t (1 : Fin 2) * 512 + r.val < 8192) :
    k0_pay1 (F := Ideal) (iblk m c 1 t) (iblk m c 0 t) (ix2 e r)
      = logitsT (V m c main_arg0) (V m c main_arg1) (ix2 e ⟨win0_2.index t (1 : Fin 2) * 512 + r.val, hr⟩) := by
  obtain ⟨e0, -⟩ := block_indices t
  refine (Block.pay_apply (iblk m c 1 t) (iblk m c 0 t) e r).trans ?_
  refine ((logitsT_ix2 (V m c main_arg0) (V m c main_arg1) e ⟨win0_2.index t (1 : Fin 2) * 512 + r.val, hr⟩).trans ?_).symm
  refine Finset.sum_congr rfl fun k _ => ?_
  have hr0 : win0_0.index t (0 : Fin 2) * 512 + r.val < 8192 := by rw [e0]; exact hr
  have hx := tok_block m c t r k hr0
  have hw := wgt_block m c t e k
  have hrow : (⟨win0_2.index t (1 : Fin 2) * 512 + r.val, hr⟩ : Fin 8192)
      = ⟨win0_0.index t (0 : Fin 2) * 512 + r.val, hr0⟩ :=
    Fin.ext (by show win0_2.index t (1 : Fin 2) * 512 + r.val = win0_0.index t (0 : Fin 2) * 512 + r.val; rw [e0])
  rw [hw, hx, hrow]

/-- WHAT POINT `t` WRITES BACK is its block of the expert-major logits of the arrays as the region finds them. -/
theorem flushed_eq (c : Dev nD) (t : Fin cfg0.N) :
    (dats m 0 c).flushed 2 t
      = ((cfg0.win 2).blk t).view.read (Elt Ideal) (logitsT (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S64x4096) zero_offsets, View.ld_unit_zero (S := S512x4096) zero_offsets]
  obtain ⟨-, -, -, -, e4, e5⟩ := block_indices t
  funext j
  obtain ⟨p, q, rfl⟩ : ∃ (p : Fin 64) (q : Fin 512), j = ix2 p q := ⟨j 0, j 1, eq_ix2 j⟩
  have hq : win0_2.index t (1 : Fin 2) * 512 + q.val < 8192 := by have := q.isLt; omega
  show k0_pay1 (F := Ideal) (iblk m c 1 t) (iblk m c 0 t) (ix2 p q)
    = logitsT (V m c main_arg0) (V m c main_arg1) (((cfg0.win 2).blk t).view.emb (ix2 p q))
  have hemb : ((cfg0.win 2).blk t).view.emb (ix2 p q)
      = ix2 (n0 := 64) (n1 := 8192) p ⟨win0_2.index t (1 : Fin 2) * 512 + q.val, hq⟩ := by
    funext a
    apply Fin.ext
    match a with
    | ⟨0, _⟩ => show win0_2.index t (0 : Fin 2) * 64 + 1 * p.val = p.val; omega
    | ⟨1, _⟩ => show win0_2.index t (1 : Fin 2) * 512 + 1 * q.val = win0_2.index t (1 : Fin 2) * 512 + q.val; omega
  rw [hemb]
  exact point_entry m c t p q hq

/-- An index of the expert-major array is in point `t`'s block iff each coordinate is in the block's range. -/
theorem mem_blk (t : Fin cfg0.N) (i : S64x8192.Idx) :
    i ∈ ((cfg0.win 2).blk t).view.set ↔ ∀ a : Fin 2, win0_2.index t a * S64x512.size a ≤ (i a).val
      ∧ (i a).val < win0_2.index t a * S64x512.size a + S64x512.size a := by
  show i ∈ ((View.whole main_call0_v0).slice (win0_2.rect t)).set ↔ _
  rw [View.set_slice_whole, Rect.mem_set_unit]
  exact Iff.rfl

/-- Every index of the array is in some point's block: column n lies in column block n / 512. -/
theorem covered (i : S64x8192.Idx) :
    ∃ t : Fin cfg0.N, (cfg0.win 2).flush t = true ∧ i ∈ ((cfg0.win 2).blk t).view.set := by
  have hi0 : (i 0).val < 64 := (i 0).isLt
  have hi1 : (i 1).val < 8192 := (i 1).isLt
  obtain ⟨t, ht⟩ := every_block ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 512 ≤ (i 1).val ∧ (i 1).val < win0_2.index t (1 : Fin 2) * 512 + 512; omega

/-- THE ARRAY after the region: the expert-major logits of the two argument arrays. -/
theorem final (c : Dev nD) :
    (dats m 0 c).arrAt 2 cfg0.N
      = logitsT (m ((c : Thread nD τ).loc main_arg0)) (m ((c : Thread nD τ).loc main_arg1)) :=
  (dats m 0 c).arrAt_eq_of_cover 2 (logitsT (V m c main_arg0) (V m c main_arg1)) (fun t _ => flushed_eq m c t) covered

end Cert.Router.Kernel

end
-- ==== Proof.KernelRun.lean ====
/-
  The kernel program's run, read.  After the region the expert-major array holds `logitsT X W`; the one host
  operation that follows transposes it into the result, and a transpose read at (t, e) is its operand at (e, t).
  So the result holds, at (t, e), the expert-major logit at (e, t), which is the token-major logit at (t, e).
-/
import proofs.«134084_g34059090657511_cont_8to1_b_1266_24_alg».proof.Proof.KernelArray
import Idealize.ShloMosaic.Lib.StableHlo.Run

noncomputable section

open scoped BigOperators

namespace Cert.Router.Kernel

open Cert.KernelIdeal Cert.KernelIdeal.Gen Idealize.ShloMosaic Idealize.ShloMosaic.TcCoe Idealize.SL.Sem
open Idealize.ShloMosaic.ValueIdx Idealize.ShloMosaic.StableHlo Cert.Router
open Idealize.ShloMosaic.Pipeline (Dat)

variable (m : (ℓ : Loc nD τ sig) → Buf (Elt Ideal) ℓ) (ρ : Dev nD → PrngReg)

/-- Transposing the expert-major logits gives the token-major logits. -/
theorem transpose_logitsT (X : TokIdx → EReal) (W : WgtIdx → EReal) (h : S64x8192.Transposes [1, 0] S8192x64) :
    transpose S8192x64 [1, 0] (logitsT X W) h = logits X W := by
  funext j
  obtain ⟨t, e, rfl⟩ : ∃ (t : Fin 8192) (e : Fin 64), j = ix2 t e := ⟨j 0, j 1, eq_ix2 j⟩
  refine (transpose_apply [1, 0] (logitsT X W) h (ix2 t e) (ix2 e t)
    (fun b => match b with | ⟨0, _⟩ => rfl | ⟨1, _⟩ => rfl)).trans ?_
  exact logitsT_swap X W t e

/-- The result buffer after the host operation that follows the region. -/
theorem tail_value (c : Dev nD) :
    Pipeline.afterTail₀ cfgs (dats m) 0 (V0 m) [hostOps1] c main_v0
      = logits (m ((c : Thread nD τ).loc main_arg0)) (m ((c : Thread nD τ).loc main_arg1)) := by
  unfold Pipeline.afterTail₀
  show StableHlo.after hostOps1 _ (Proc.devRef .tc main_v0) = _
  after_results
  have harr : Pipeline.withArrays spec0 c (V0 m c) (fun w => (dats m 0 c).arrAt w cfg0.N)
        (Proc.devRef .tc (Pipeline.arrRef spec0 2))
      = logitsT (m ((c : Thread nD τ).loc main_arg0)) (m ((c : Thread nD τ).loc main_arg1)) :=
    (Pipeline.withArrays_arr spec0 launch0.win.arr_inj c _ _ 2).trans (final m c)
  show transpose S8192x64 [1, 0] (Pipeline.withArrays spec0 c (V0 m c) (fun w => (dats m 0 c).arrAt w cfg0.N)
      (Proc.devRef .tc (Pipeline.arrRef spec0 2))) transposes_S64x8192_S8192x64_1_0 = _
  rw [harr]
  exact transpose_logitsT _ _ _

/-- The run of the kernel program on the extended reals: every weakly fair execution terminates with the result
    at the token-major logits of the two argument arrays, which end unchanged.  The result buffer is none of the
    region's arrays, so the frame run gives it as the value of the host operation that follows the region. -/
theorem run : θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Router.Kernel

end
-- ==== Proof.Reference.lean ====
/-
  The reference, read.  It transposes the weight matrix to 4096 × 64 and multiplies the token matrix by it,
  contracting the token matrix's feature axis with the transposed weights' first axis.  Read at (t, e) on the
  extended reals that is the sum over the features k of X(t, k) times the transposed weights at (k, e), and the
  transposed weights at (k, e) are W(e, k): the token-major logits, term by term.
-/
import proofs.«134084_g34059090657511_cont_8to1_b_1266_24_alg».proof.Proof.Gen.ReferenceIdeal.Read
import proofs.«134084_g34059090657511_cont_8to1_b_1266_24_alg».proof.Proof.Logits

noncomputable section

open scoped BigOperators

namespace Cert.Router.Ref

open Cert.ReferenceIdeal Cert.ReferenceIdeal.Read Idealize.ShloMosaic Idealize.ShloMosaic.ValueIdx Cert.Router

/-- The reference's result, as a function of its two argument arrays, is the token-major logits. -/
theorem reference_is_logits (X : (⟨S8192x4096, .f32⟩ : BufTy).Contents (Elt Ideal))
    (W : (⟨S64x4096, .f32⟩ : BufTy).Contents (Elt Ideal)) :
    val_main_v1 (F := Ideal) X W = (logits X W : LogitIdx → EReal) := by
  funext j
  obtain ⟨t, e, rfl⟩ : ∃ (t : Fin 8192) (e : Fin 64), j = ix2 t e := ⟨j 0, j 1, eq_ix2 j⟩
  refine (val_main_v1_apply X W (ix2 t e)).trans ?_
  refine ((logits_ix2 X W t e).trans ?_).symm
  refine Finset.sum_congr rfl fun k _ => ?_
  have el : lidx_main_v1 (ix2 t e) k = ix2 t k :=
    funext fun a => Fin.ext (by match a with | ⟨0, _⟩ => rfl | ⟨1, _⟩ => rfl)
  have er : idx_main_v0 (ridx_main_v1 (ix2 t e) k) = ix2 e k :=
    funext fun a => Fin.ext (by match a with | ⟨0, _⟩ => rfl | ⟨1, _⟩ => rfl)
  rw [val_main_v0_apply, el, er]

end Cert.Router.Ref

end
-- ==== Proof.lean ====
/-
  The router's logits: a token matrix X (8192 × 4096) against a weight matrix W (64 × 4096).  Both programs
  compute, for every token t and expert e, the inner product of row t of X with row e of W.

  The kernel walks the tokens in 16 blocks of 512 rows.  At each block it multiplies the whole weight matrix by
  the block, contracting the feature axis of both, which yields a 64 × 512 column block of the expert-major
  array (experts down, tokens across); a host transpose after the region turns that array token-major.  The
  reference transposes W and multiplies X by it in one product.  On the extended reals a matrix product read at
  an index is the plain sum of the 4096 products, whatever the blocking, so both results at (t, e) are sums over
  the same features k of the same two numbers X(t, k) and W(e, k), multiplied in opposite orders; multiplication
  of extended reals is commutative, infinities included, so the sums agree and the precondition that the inputs
  are finite is never used.

  Proof/Logits.lean states the two layouts and the law between them, Proof/MatmulBlock.lean reads the body's
  product at an index, Proof/KernelArray.lean goes from the blocks to the whole expert-major array,
  Proof/KernelRun.lean reads the transpose that follows the region, Proof/Reference.lean reads the reference.
  The kernel's rewriting to the extended reals changed no operation, so that claim is the true proposition.
-/
import proofs.«134084_g34059090657511_cont_8to1_b_1266_24_alg».proof.Defs
import proofs.«134084_g34059090657511_cont_8to1_b_1266_24_alg».proof.Proof.Gen.Kernel
import proofs.«134084_g34059090657511_cont_8to1_b_1266_24_alg».proof.Proof.Gen.Kernel.Skeleton
import proofs.«134084_g34059090657511_cont_8to1_b_1266_24_alg».proof.Proof.Gen.Kernel.Launch
import proofs.«134084_g34059090657511_cont_8to1_b_1266_24_alg».proof.Proof.Gen.Kernel.Points
import proofs.«134084_g34059090657511_cont_8to1_b_1266_24_alg».proof.Proof.Gen.Kernel.Frame
import proofs.«134084_g34059090657511_cont_8to1_b_1266_24_alg».proof.Proof.Gen.KernelIdeal
import proofs.«134084_g34059090657511_cont_8to1_b_1266_24_alg».proof.Proof.Gen.KernelIdeal.Skeleton
import proofs.«134084_g34059090657511_cont_8to1_b_1266_24_alg».proof.Proof.Gen.KernelIdeal.Launch
import proofs.«134084_g34059090657511_cont_8to1_b_1266_24_alg».proof.Proof.Gen.KernelIdeal.Points
import proofs.«134084_g34059090657511_cont_8to1_b_1266_24_alg».proof.Proof.Gen.KernelIdeal.Frame
import proofs.«134084_g34059090657511_cont_8to1_b_1266_24_alg».proof.Proof.Gen.ReferenceIdeal
import proofs.«134084_g34059090657511_cont_8to1_b_1266_24_alg».proof.Proof.Gen.ReferenceIdeal.Run
import proofs.«134084_g34059090657511_cont_8to1_b_1266_24_alg».proof.Proof.Gen.ReferenceIdeal.Read
import proofs.«134084_g34059090657511_cont_8to1_b_1266_24_alg».proof.Proof.Gen.Pre_finite_inputs
import proofs.«134084_g34059090657511_cont_8to1_b_1266_24_alg».proof.Proof.KernelRun
import proofs.«134084_g34059090657511_cont_8to1_b_1266_24_alg».proof.Proof.Reference
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the token-major logits of their arguments, and the arguments agree. -/
theorem algebraic : Cert.algebraic_KernelIdeal_ReferenceIdeal := by
  intro m ρ m' ρ' _ hagree
  refine ⟨_, Cert.Router.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v1_eq _ _).trans (Cert.Router.Ref.reference_is_logits _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
